-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S1000x20480 : S_.BroadcastsInDim S1000x20480 (![] : Fin 0 → Fin S1000x20480.rank)
  reducesTo_S1000x20480_S_d0_1 : S1000x20480.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x20480 1) : IVec S_ 1 :=
  let main_c_5 : IVec S_ 1 := constantI S_ 1 1#1
  let main_v17 : IVec S_ 1 := (fun x v => Host.reduce IntOp.andi x v reducesTo_S1000x20480_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S4096x4096 .f32) (main_arg1 : FVec F S16384x4096 .f32) (main_arg2 : FVec F S16384 .f32) (main_arg3 : FVec F S1000x20480 .f32) (main_arg4 : FVec F S1000 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S1000x20480 .f32 := Host.absf main_arg3
  let main_cst_4 : FVec F S_ .f32 := constant S_ .f32 0x7F800000#32
  let main_v15 : FVec F S1000x20480 .f32 := broadcastInDim S1000x20480 ![] bcast_S_S1000x20480 main_cst_4
  let main_v16 : IVec S1000x20480 1 := cmpf .olt main_v14 main_v15
  fn_part1 (F := F) main_arg4 main_v13 main_v16
-- ==== Kernel.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S_ : Shape := ⟨0, ![]⟩
abbrev S1024x20480 : Shape := ⟨2, ![1024, 20480]⟩
abbrev S1024 : Shape := ⟨1, ![1024]⟩
abbrev S1024x4096 : Shape := ⟨2, ![1024, 4096]⟩
abbrev S1024x16384 : Shape := ⟨2, ![1024, 16384]⟩
abbrev S1x16384 : Shape := ⟨2, ![1, 16384]⟩
abbrev S1x1024 : Shape := ⟨2, ![1, 1024]⟩
abbrev S4096x1024 : Shape := ⟨2, ![4096, 1024]⟩
abbrev S512x4096 : Shape := ⟨2, ![512, 4096]⟩
abbrev S1x512 : Shape := ⟨2, ![1, 512]⟩
abbrev S1024x512 : Shape := ⟨2, ![1024, 512]⟩
abbrev S512x1024 : Shape := ⟨2, ![512, 1024]⟩
abbrev S512x512 : Shape := ⟨2, ![512, 512]⟩
abbrev S4096x1000 : Shape := ⟨2, ![4096, 1000]⟩

abbrev nBuf : Space → Nat
  | .hbm => 21
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1000x20480, .f32⟩
  | .hbm, ⟨4, _⟩ => ⟨S1000, .f32⟩
  | .hbm, ⟨5, _⟩ => ⟨S4096x4096, .bf16⟩
  | .hbm, ⟨6, _⟩ => ⟨S16384x4096, .bf16⟩
  | .hbm, ⟨7, _⟩ => ⟨S_, .i32⟩
  | .hbm, ⟨8, _⟩ => ⟨S_, .f32⟩
  | .hbm, ⟨9, _⟩ => ⟨S1024x20480, .f32⟩
  | .hbm, ⟨10, _⟩ => ⟨S_, .i32⟩
  | .hbm, ⟨11, _⟩ => ⟨S_, .f32⟩
  | .hbm, ⟨12, _⟩ => ⟨S1024, .f32⟩
  | .hbm, ⟨13, _⟩ => ⟨S1024x4096, .f32⟩
  | .hbm, ⟨14, _⟩ => ⟨S1024x4096, .bf16⟩
  | .hbm, ⟨15, _⟩ => ⟨S1024x16384, .f32⟩
  | .hbm, ⟨16, _⟩ => ⟨S1024x16384, .bf16⟩
  | .hbm, ⟨17, _⟩ => ⟨S1x16384, .f32⟩
  | .hbm, ⟨18, _⟩ => ⟨S1x1024, .f32⟩
  | .hbm, ⟨19, _⟩ => ⟨S4096x1024, .f32⟩
  | .hbm, ⟨20, _⟩ => ⟨S4096x1000, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x4096, .bf16⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  pads_S1000x20480_S1024x20480_0240_000 : S1000x20480.Pads (![0, 0] : Fin 2 → Nat) ![24, 0] ![0, 0] S1024x20480
  h_S_ : 0 < S_.numel
  pads_S1000_S1024_0240 : S1000.Pads (![0] : Fin 1 → Nat) ![24] ![0] S1024
  slices_S1024x20480_S1024x4096_0_0 : S1024x20480.Slices ![0, 0] S1024x4096
  slices_S1024x20480_S1024x16384_0_4096 : S1024x20480.Slices ![0, 4096] S1024x16384
  shapeCasts_S16384_S1x16384 : S16384.ShapeCasts S1x16384
  shapeCasts_S1024_S1x1024 : S1024.ShapeCasts S1x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S4096x1024_S4096x1000_0_0 : S4096x1024.Slices ![0, 0] S4096x1000
  dot_S512x4096_S1024x4096_S512x1024_1_1_0_0_n_n_wf : DotDims.WF S512x4096 S1024x4096 S512x1024 [1] [1] [0] [0] [] []
  dot_S512x4096_S512x4096_S512x512_1_1_0_0_n_n_wf : DotDims.WF S512x4096 S512x4096 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x16384.size a
  hwx0_5 : ∀ i : grid0.Coords, EltTy.bits .bf16 = 32 ∨ (Rect.block (s := S1024x16384) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S16384x4096 : Shape := ⟨2, ![16384, 4096]⟩
abbrev S16384 : Shape := ⟨1, ![16384]⟩
abbrev S1000x20480 : Shape := ⟨2, ![1000, 20480]⟩
abbrev S1000 : Shape := ⟨1, ![1000]⟩
abbrev S4096x16384 : Shape := ⟨2, ![4096, 16384]⟩
abbrev S1x16384 : Shape := ⟨2, ![1, 16384]⟩
abbrev S_ : Shape := ⟨0, ![]⟩
abbrev S4096x20480 : Shape := ⟨2, ![4096, 20480]⟩
abbrev S4096x1000 : Shape := ⟨2, ![4096, 1000]⟩
abbrev S1x1000 : Shape := ⟨2, ![1, 1000]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x4096, .f32⟩
  | .hbm, ⟨2, _⟩ => ⟨S16384, .f32⟩
  | .hbm, ⟨3, _⟩ => ⟨S1000x20480, .f32⟩
  | .hbm, ⟨4, _⟩ => ⟨S1000, .f32⟩
  | .hbm, ⟨5, _⟩ => ⟨S4096x16384, .f32⟩
  | .hbm, ⟨6, _⟩ => ⟨S1x16384, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x20480, .f32⟩
  | .hbm, ⟨13, _⟩ => ⟨S4096x1000, .f32⟩
  | .hbm, ⟨14, _⟩ => ⟨S1x1000, .f32⟩
  | .hbm, ⟨15, _⟩ => ⟨S4096x1000, .f32⟩
  | .hbm, ⟨16, _⟩ => ⟨S4096x1000, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  concatenates_S4096x4096_S4096x16384_S4096x20480_d1 : Shape.Concatenates [S4096x4096, S4096x16384] S4096x20480 1
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  dot_S4096x4096_S16384x4096_S4096x16384_1_1_0_0_n_n_wf : DotDims.WF S4096x4096 S16384x4096 S4096x16384 [1] [1] [0] [0] [] []
  dot_S4096x20480_S1000x20480_S4096x1000_1_1_0_0_n_n_wf : DotDims.WF S4096x20480 S1000x20480 S4096x1000 [1] [1] [0] [0] [] []

variable [Facts₀]

def dot_S4096x4096_S16384x4096_S4096x16384_1_1_0_0_n_n : DotDims S4096x4096 S16384x4096 S4096x16384 where
  lhsContracting := [1]
  rhsContracting := [1]
  lhsNonContracting := [0]
  rhsNonContracting := [0]
  lhsBatch := []
  rhsBatch := []
  wf := dot_S4096x4096_S16384x4096_S4096x16384_1_1_0_0_n_n_wf
def dot_S4096x20480_S1000x20480_S4096x1000_1_1_0_0_n_n : DotDims S4096x20480 S1000x20480 S4096x1000 where
  lhsContracting := [1]
  rhsContracting := [1]
  lhsNonContracting := [0]
  rhsNonContracting := [0]
  lhsBatch := []
  rhsBatch := []
  wf := dot_S4096x20480_S1000x20480_S4096x1000_1_1_0_0_n_n_wf

class Facts : Prop extends Facts₀ where

variable [Facts]
-- ==== Proof.Pieces.lean ====
/-
  What one run of the body leaves behind, as values.  At the first hidden block of a row block the accumulator is
  first seeded (input times the first half of the second weight matrix, plus the bias) and then receives the
  block's contribution; at every other hidden block it receives the contribution on top of what it held; at the
  last hidden block the output block is a copy of the accumulator.
-/
import proofs.«121853_j88965952569844_2_alg».proof.Proof.Gen.KernelIdeal.Frame
import Idealize.ShloMosaic.Lib.Pipeline.Value
import Idealize.ShloMosaic.Lib.Tactic

noncomputable section

namespace Cert.Mlp.Kernel

open Idealize.ShloMosaic Idealize.ShloMosaic.TcCoe Idealize.SL.Sem
open Cert.KernelIdeal Cert.KernelIdeal.Gen

variable {F : FTy → Type} [FloatOps F]

/-- Every block is read and stored whole: its offsets are both zero. -/
private theorem zeroOffsets : (![0, 0] : Fin 2 → Nat) = fun _ => 0 := funext fun a => by fin_cases a <;> rfl

/-- First hidden block: seed, then add. -/
theorem sout_A (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S512x4096 .bf16) (x2 : Vec F S1x512 .f32) (x3 : Vec F S1024x4096 .bf16) (x4 : Vec F S1x1024 .f32) (x5 : Vec F S1024x512 .bf16) :
    sout0_A_0 c i arg2 harg2 arg3 harg3 arg4 harg4 arg5 harg5 arg6 harg6 arg7 harg7 arg8 harg8 arg9 harg9 hc0 hc1 x0 x1 x2 x3 x4 x5 = k0_pay2 x0 x1 x2 (k0_pay1 x0 x3 x4) x5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) zeroOffsets, View.readCov_unit_zero (S := S512x1024) _ zeroOffsets]
  simp only [View.readAt_eq_ld, harg2.read_unread, harg3.read_unread, harg4.read_unread, harg5.read_unread,
    harg6.read_unread, harg7.read_unread, harg9.read_unread,
    View.ld_unit_zero (S := S512x4096) zeroOffsets, View.ld_unit_zero (S := S1x512) zeroOffsets, View.ld_unit_zero (S := S512x1024) zeroOffsets,
    View.ld_unit_zero (S := S1024x512) zeroOffsets, View.ld_unit_zero (S := S1024x4096) zeroOffsets, View.ld_unit_zero (S := S1x1024) zeroOffsets]

/-- A middle hidden block: add onto what the accumulator held. -/
theorem sout_B (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S512x4096 .bf16) (x2 : Vec F S1x512 .f32) (x3 : Vec F S1024x4096 .bf16) (x4 : Vec F S1x1024 .f32) (x5 : Vec F S1024x512 .bf16) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 xs0 x5 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  rw [View.canon_unit_zero (S := S512x1024) zeroOffsets]
  simp only [View.readAt_eq_ld, harg2.read_unread, harg3.read_unread, harg4.read_unread, harg5.read_unread,
    harg6.read_unread, harg7.read_unread, harg9.read_unread,
    View.ld_unit_zero (S := S512x4096) zeroOffsets, View.ld_unit_zero (S := S1x512) zeroOffsets, View.ld_unit_zero (S := S512x1024) zeroOffsets,
    View.ld_unit_zero (S := S1024x512) zeroOffsets, View.ld_unit_zero (S := S1024x4096) zeroOffsets, View.ld_unit_zero (S := S1x1024) zeroOffsets]

/-- The last hidden block: add onto what the accumulator held; -/
theorem sout_C (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S512x4096 .bf16) (x2 : Vec F S1x512 .f32) (x3 : Vec F S1024x4096 .bf16) (x4 : Vec F S1x1024 .f32) (x5 : Vec F S1024x512 .bf16) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 xs0 x5 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x1024) zeroOffsets]
  simp only [View.readAt_eq_ld, harg2.read_unread, harg3.read_unread, harg4.read_unread, harg5.read_unread,
    harg6.read_unread, harg7.read_unread, harg9.read_unread,
    View.ld_unit_zero (S := S512x4096) zeroOffsets, View.ld_unit_zero (S := S1x512) zeroOffsets, View.ld_unit_zero (S := S512x1024) zeroOffsets,
    View.ld_unit_zero (S := S1024x512) zeroOffsets, View.ld_unit_zero (S := S1024x4096) zeroOffsets, View.ld_unit_zero (S := S1x1024) zeroOffsets]

/-- and the output block is a copy of the accumulator. -/
theorem out_C (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S1x512 .f32) (harg4 : arg4.IsWhole) (arg5 : Memref sig .tc .vmem S1024x4096 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S512x4096 .bf16) (x2 : Vec F S1x512 .f32) (x3 : Vec F S1024x4096 .bf16) (x4 : Vec F S1x1024 .f32) (x5 : Vec F S1024x512 .bf16) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay2 x0 x1 x2 xs0 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x1024) zeroOffsets, View.readCov_unit_zero (S := S512x1024) _ zeroOffsets]
  simp only [View.readAt_eq_ld, harg2.read_unread, harg3.read_unread, harg4.read_unread, harg5.read_unread,
    harg6.read_unread, harg7.read_unread, harg9.read_unread,
    View.ld_unit_zero (S := S512x4096) zeroOffsets, View.ld_unit_zero (S := S1x512) zeroOffsets, View.ld_unit_zero (S := S512x1024) zeroOffsets,
    View.ld_unit_zero (S := S1024x512) zeroOffsets, View.ld_unit_zero (S := S1024x4096) zeroOffsets, View.ld_unit_zero (S := S1x1024) zeroOffsets]

end Cert.Mlp.Kernel

end
-- ==== Proof.Blocks.lean ====
/-
  Which entries of its array each input window hands the body at grid point t = 32 i + j: rows 512 i .. of the
  input, rows 512 j .. of the first weight matrix and of the first bias row, the whole first half of the second
  weight matrix and the whole second bias row, and columns 512 j .. of the second half of the second weight matrix.
-/
import proofs.«121853_j88965952569844_2_alg».proof.Proof.Gen.KernelIdeal.Frame.Runs
import Idealize.ShloMosaic.Lib.ValueIdx
import Idealize.ShloMosaic.Lib.Pipeline.Value

noncomputable section

namespace Cert.Mlp.Kernel

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (c : Dev nD)

/-- The windows' block indices at grid point `t`, decided once over the grid: window 0 moves with `t / 32` along the
    rows, windows 1, 2 and 5 with `t % 32` along their cut axis, windows 3 and 4 do not move. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 32 :=
  (by decide +kernel : ∀ t : Fin grid0.N, _)

theorem iblk0_apply (t : Fin cfg0.N) (p : Fin 512) (d : Fin 4096) (hr : 512 * (t.val / 32) + p.val < 4096) :
    (iblk m c 0 t : Vec F S512x4096 .bf16) (ix2 p d)
      = (V m c main_v0 : Vec F S4096x4096 .bf16) (ix2 ⟨512 * (t.val / 32) + p.val, hr⟩ d) := by
  obtain ⟨e0, e1, -⟩ := idx_facts t
  unfold iblk
  rw [View.read_apply]
  show V m c main_v0 (((cfg0.win 0).blk t).view.emb _) = V m c main_v0 _
  congr 1
  funext a
  apply Fin.ext
  match a with
  | ⟨0, _⟩ => show win0_0.index t (0 : Fin 2) * 512 + 1 * p.val = 512 * (t.val / 32) + p.val; omega
  | ⟨1, _⟩ => show win0_0.index t (1 : Fin 2) * 4096 + 1 * d.val = d.val; omega

theorem iblk1_apply (t : Fin cfg0.N) (h : Fin 512) (d : Fin 4096) (hr : 512 * (t.val % 32) + h.val < 16384) :
    (iblk m c 1 t : Vec F S512x4096 .bf16) (ix2 h d)
      = (V m c main_v1 : Vec F S16384x4096 .bf16) (ix2 ⟨512 * (t.val % 32) + h.val, hr⟩ d) := by
  obtain ⟨-, -, e0, e1, -⟩ := idx_facts t
  unfold iblk
  rw [View.read_apply]
  show V m c main_v1 (((cfg0.win 1).blk t).view.emb _) = V m c main_v1 _
  congr 1
  funext a
  apply Fin.ext
  match a with
  | ⟨0, _⟩ => show win0_1.index t (0 : Fin 2) * 512 + 1 * h.val = 512 * (t.val % 32) + h.val; omega
  | ⟨1, _⟩ => show win0_1.index t (1 : Fin 2) * 4096 + 1 * d.val = d.val; omega

theorem iblk2_apply (t : Fin cfg0.N) (h : Fin 512) (hr : 512 * (t.val % 32) + h.val < 16384) :
    (iblk m c 2 t : Vec F S1x512 .f32) (ix2 0 h)
      = (V m c main_v8 : Vec F S1x16384 .f32) (ix2 0 ⟨512 * (t.val % 32) + h.val, hr⟩) := by
  obtain ⟨-, -, -, -, e0, e1, -⟩ := idx_facts t
  unfold iblk
  rw [View.read_apply]
  show V m c main_v8 (((cfg0.win 2).blk t).view.emb _) = V m c main_v8 _
  congr 1
  funext a
  apply Fin.ext
  match a with
  | ⟨0, _⟩ => show win0_2.index t (0 : Fin 2) * 1 + 1 * 0 = 0; omega
  | ⟨1, _⟩ => show win0_2.index t (1 : Fin 2) * 512 + 1 * h.val = 512 * (t.val % 32) + h.val; omega

theorem iblk3_apply (t : Fin cfg0.N) (o : Fin 1024) (d : Fin 4096) :
    (iblk m c 3 t : Vec F S1024x4096 .bf16) (ix2 o d) = (V m c main_v5 : Vec F S1024x4096 .bf16) (ix2 o d) := by
  obtain ⟨-, -, -, -, -, -, e0, e1, -⟩ := idx_facts t
  unfold iblk
  rw [View.read_apply]
  show V m c main_v5 (((cfg0.win 3).blk t).view.emb _) = V m c main_v5 _
  congr 1
  funext a
  apply Fin.ext
  match a with
  | ⟨0, _⟩ => show win0_3.index t (0 : Fin 2) * 1024 + 1 * o.val = o.val; omega
  | ⟨1, _⟩ => show win0_3.index t (1 : Fin 2) * 4096 + 1 * d.val = d.val; omega

theorem iblk4_apply (t : Fin cfg0.N) (o : Fin 1024) :
    (iblk m c 4 t : Vec F S1x1024 .f32) (ix2 0 o) = (V m c main_v9 : Vec F S1x1024 .f32) (ix2 0 o) := by
  obtain ⟨-, -, -, -, -, -, -, -, e0, e1, -⟩ := idx_facts t
  unfold iblk
  rw [View.read_apply]
  show V m c main_v9 (((cfg0.win 4).blk t).view.emb _) = V m c main_v9 _
  congr 1
  funext a
  apply Fin.ext
  match a with
  | ⟨0, _⟩ => show win0_4.index t (0 : Fin 2) * 1 + 1 * 0 = 0; omega
  | ⟨1, _⟩ => show win0_4.index t (1 : Fin 2) * 1024 + 1 * o.val = o.val; omega

theorem iblk5_apply (t : Fin cfg0.N) (o : Fin 1024) (h : Fin 512) (hr : 512 * (t.val % 32) + h.val < 16384) :
    (iblk m c 5 t : Vec F S1024x512 .bf16) (ix2 o h)
      = (V m c main_v7 : Vec F S1024x16384 .bf16) (ix2 o ⟨512 * (t.val % 32) + h.val, hr⟩) := by
  obtain ⟨-, -, -, -, -, -, -, -, -, -, e0, e1⟩ := idx_facts t
  unfold iblk
  rw [View.read_apply]
  show V m c main_v7 (((cfg0.win 5).blk t).view.emb _) = V m c main_v7 _
  congr 1
  funext a
  apply Fin.ext
  match a with
  | ⟨0, _⟩ => show win0_5.index t (0 : Fin 2) * 1024 + 1 * o.val = o.val; omega
  | ⟨1, _⟩ => show win0_5.index t (1 : Fin 2) * 512 + 1 * h.val = 512 * (t.val % 32) + h.val; omega

end Cert.Mlp.Kernel

end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.Payload.lean ====
/-
  The body's two stored values read entry by entry over the extended reals.  The seed at (p, q) is the inner
  product of row p of the input block with row q of the first half of the second weight matrix, plus the bias at
  q.  The update at (p, q) is the old accumulator entry plus the sum, over the 512 hidden units h of the block, of
  max(<input row p, first-layer row h> + b1_h, 0) times the second-half weight at (q, h).
-/
import proofs.«121853_j88965952569844_2_alg».proof.Proof.Gen.KernelIdeal.Skeleton
import proofs.«121853_j88965952569844_2_alg».proof.Proof.LibMatmulRowsRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Kernel

open Idealize.ShloMosaic Idealize.ShloMosaic.TcCoe Idealize.SL.Sem Idealize.ShloMosaic.ValueIdx
open Cert.KernelIdeal Cert.KernelIdeal.Gen

/-- The seed, entry by entry. -/
theorem pay1_apply (x0 : Vec Ideal S512x4096 .bf16) (x3 : Vec Ideal S1024x4096 .bf16) (x4 : Vec Ideal S1x1024 .f32)
    (p : Fin 512) (q : Fin 1024) :
    (k0_pay1 (F := Ideal) x0 x3 x4 : S512x1024.Idx → EReal) (ix2 p q)
      = (∑ d : Fin 4096, (x0 (ix2 p d) : EReal) * (x3 (ix2 q d) : EReal)) + (x4 (ix2 0 q) : EReal) := by
  unfold k0_pay1
  simp only [shapeCast_self]
  refine congrArg₂ (· + ·) ?_ ?_
  · exact matmul_rows_ix2_apply dot_S512x4096_S1024x4096_S512x1024_1_1_0_0_n_n rfl rfl rfl rfl rfl rfl none x0 x3 p q
  · exact broadcastTo_1b_ab_apply x4 broadcasts_S1x1024_S512x1024 p q

/-- The update, entry by entry. -/
theorem pay2_apply (x0 : Vec Ideal S512x4096 .bf16) (x1 : Vec Ideal S512x4096 .bf16) (x2 : Vec Ideal S1x512 .f32)
    (a : Vec Ideal S512x1024 .f32) (x5 : Vec Ideal S1024x512 .bf16) (p : Fin 512) (q : Fin 1024) :
    (k0_pay2 (F := Ideal) x0 x1 x2 a x5 : S512x1024.Idx → EReal) (ix2 p q)
      = (a (ix2 p q) : EReal) + ∑ h : Fin 512,
          max ((∑ d : Fin 4096, (x0 (ix2 p d) : EReal) * (x1 (ix2 h d) : EReal)) + (x2 (ix2 0 h) : EReal))
            (Ideal.ofBits .f32 0x00000000#32) * (x5 (ix2 q h) : EReal) := by
  unfold k0_pay2
  simp only [shapeCast_self]
  refine congrArg₂ (· + ·) rfl ?_
  refine (matmul_rows_ix2_apply (φ₁ := .bf16) (φ₂ := .bf16) dot_S512x512_S1024x512_S512x1024_1_1_0_0_n_n rfl rfl rfl rfl rfl rfl none _ x5 p q).trans ?_
  refine Finset.sum_congr rfl fun h _ => ?_
  refine congrArg₂ (· * ·) ?_ rfl
  refine congrArg₂ max ?_ rfl
  refine congrArg₂ (· + ·) ?_ ?_
  · exact matmul_rows_ix2_apply dot_S512x4096_S512x4096_S512x512_1_1_0_0_n_n rfl rfl rfl rfl rfl rfl none x0 x1 p h
  · exact broadcastTo_1b_ab_apply x2 broadcasts_S1x512_S512x512 p h

end Cert.Mlp.Kernel

end
-- ==== Proof.Spec.lean ====
/-
  The two-layer network both programs compute, entry by entry, over the extended reals.

  A row r of the input meets 16384 hidden units: unit u holds max(<x_r, W1_u> + b1_u, 0).  Output o of row r is
  the inner product of the row [x_r, hidden_r] of length 4096 + 16384 with row o of the second weight matrix,
  plus the bias b2_o.  One program takes that inner product as one sum of 20480 products (`refAt`); the other
  starts from the first 4096 products plus the bias and then adds the hidden units' products 512 units at a time,
  32 times (`acc`).  Addition of extended reals is associative and commutative, so the two agree; no finiteness is
  needed.
-/
import Idealize.ShloMosaic.PureOps.Ideal
import Idealize.ShloMosaic.Lib.ValueIdx

noncomputable section

open scoped BigOperators

namespace Cert.Mlp

open Idealize.ShloMosaic Idealize.ShloMosaic.ValueIdx

/-- A rank-2 array of extended reals. -/
abbrev Mat (a b : ℕ) : Type := (⟨2, ![a, b]⟩ : Shape).Idx → EReal

/-- Hidden unit `512 j + h`: unit `h` of block `j`. -/
def unit (j : Fin 32) (h : Fin 512) : Fin 16384 := ⟨512 * j.val + h.val, by omega⟩

/-- The activation of hidden unit `u` on row `r`: the rectified affine form `max(<x_r, W1_u> + b1_u, 0)`. -/
def hidden (x : Mat 4096 4096) (w1 : Mat 16384 4096) (b1 : Fin 16384 → EReal) (r : Fin 4096) (u : Fin 16384) : EReal :=
  max ((∑ d : Fin 4096, x (ix2 r d) * w1 (ix2 u d)) + b1 u) (Ideal.ofBits .f32 0x00000000#32)

/-- What the accumulator starts from: the input's own contribution to output `o` of row `r`, plus the bias. -/
def base (x : Mat 4096 4096) (w2a : Mat 1024 4096) (b2 : Fin 1024 → EReal) (r : Fin 4096) (o : Fin 1024) : EReal :=
  (∑ d : Fin 4096, x (ix2 r d) * w2a (ix2 o d)) + b2 o

/-- The contribution of hidden block `j` (512 units) to output `o` of row `r`. -/
def blockTerm (x : Mat 4096 4096) (w1 : Mat 16384 4096) (b1 : Fin 16384 → EReal) (w2b : Mat 1024 16384)
    (r : Fin 4096) (o : Fin 1024) (j : Fin 32) : EReal :=
  ∑ h : Fin 512, hidden x w1 b1 r (unit j h) * w2b (ix2 o (unit j h))

/-- The accumulator for output `o` of row `r` after the first `n` hidden blocks have been added, in order. -/
def acc (x : Mat 4096 4096) (w1 : Mat 16384 4096) (b1 : Fin 16384 → EReal) (w2a : Mat 1024 4096)
    (b2 : Fin 1024 → EReal) (w2b : Mat 1024 16384) (r : Fin 4096) (o : Fin 1024) : ℕ → EReal
  | 0 => base x w2a b2 r o
  | n + 1 => acc x w1 b1 w2a b2 w2b r o n + (if h : n < 32 then blockTerm x w1 b1 w2b r o ⟨n, h⟩ else 0)

/-- Output `o` of row `r` as one inner product of length 20480 with the concatenated row, plus the bias. -/
def refAt (x : Mat 4096 4096) (w1 : Mat 16384 4096) (b1 : Fin 16384 → EReal) (w2 : Mat 1000 20480)
    (b2 : Fin 1000 → EReal) (r : Fin 4096) (o : Fin 1000) : EReal :=
  (∑ k : Fin 20480, (if h : k.val < 4096 then x (ix2 r ⟨k.val, h⟩)
      else hidden x w1 b1 r ⟨k.val - 4096, by have := k.isLt; omega⟩) * w2 (ix2 o k)) + b2 o

/-- The accumulator after `n` blocks is the starting value plus the sum of the first `n` block contributions. -/
private theorem acc_eq_range (x : Mat 4096 4096) (w1 : Mat 16384 4096) (b1 : Fin 16384 → EReal) (w2a : Mat 1024 4096)
    (b2 : Fin 1024 → EReal) (w2b : Mat 1024 16384) (r : Fin 4096) (o : Fin 1024) (n : ℕ) :
    acc x w1 b1 w2a b2 w2b r o n = base x w2a b2 r o
      + ∑ j ∈ Finset.range n, (if h : j < 32 then blockTerm x w1 b1 w2b r o ⟨j, h⟩ else 0) := by
  induction n with
  | zero => simp [acc]
  | succ n ih => rw [acc, ih, Finset.sum_range_succ, add_assoc]

/-- After all 32 blocks: the starting value plus the sum of the 32 block contributions. -/
private theorem acc_32 (x : Mat 4096 4096) (w1 : Mat 16384 4096) (b1 : Fin 16384 → EReal) (w2a : Mat 1024 4096)
    (b2 : Fin 1024 → EReal) (w2b : Mat 1024 16384) (r : Fin 4096) (o : Fin 1024) :
    acc x w1 b1 w2a b2 w2b r o 32 = base x w2a b2 r o + ∑ j : Fin 32, blockTerm x w1 b1 w2b r o j := by
  rw [acc_eq_range, Finset.sum_range]
  refine congrArg _ (Finset.sum_congr rfl fun j _ => ?_)
  rw [dif_pos j.isLt]

/-- A sum over `m * n` indices, taken `n` at a time. -/
private theorem sum_fin_mul {M : Type*} [AddCommMonoid M] (m n : ℕ) (g : Fin (m * n) → M) :
    ∑ u, g u = ∑ j : Fin m, ∑ h : Fin n,
      g ⟨n * j.val + h.val, by
        have hj := j.isLt; have hh := h.isLt
        calc n * j.val + h.val < n * j.val + n := by omega
          _ = n * (j.val + 1) := by ring
          _ ≤ n * m := Nat.mul_le_mul_left _ hj
          _ = m * n := Nat.mul_comm _ _⟩ := by
  rw [← Equiv.sum_comp finProdFinEquiv g, Fintype.sum_prod_type]
  refine Finset.sum_congr rfl fun j _ => Finset.sum_congr rfl fun h _ => congrArg g (Fin.ext ?_)
  simp [finProdFinEquiv, Nat.add_comm]

/-- A sum of 20480 terms: the first 4096, then 32 runs of 512. -/
private theorem sum_split (f : Fin 20480 → EReal) :
    ∑ k, f k = (∑ d : Fin 4096, f ⟨d.val, by omega⟩)
      + ∑ j : Fin 32, ∑ h : Fin 512, f ⟨4096 + (unit j h).val, by have := (unit j h).isLt; omega⟩ := by
  refine (Fin.sum_univ_add (a := 4096) (b := 16384) f).trans ?_
  refine congrArg₂ (· + ·) rfl ?_
  exact sum_fin_mul 32 512 (fun u : Fin 16384 => f (Fin.natAdd 4096 u))

/-- The blockwise accumulation ends at the one long inner product: when the two halves of the padded second weight
    matrix and the padded bias agree, on row `o`, with the unpadded ones, the accumulator after all 32 blocks is the
    reference value. -/
theorem acc_eq_ref (x : Mat 4096 4096) (w1 : Mat 16384 4096) (b1 : Fin 16384 → EReal) (w2a : Mat 1024 4096)
    (b2p : Fin 1024 → EReal) (w2b : Mat 1024 16384) (w2 : Mat 1000 20480) (b2 : Fin 1000 → EReal)
    (r : Fin 4096) (o : Fin 1000)
    (ha : ∀ d : Fin 4096, w2a (ix2 ⟨o.val, by omega⟩ d) = w2 (ix2 o ⟨d.val, by omega⟩))
    (hb : ∀ u : Fin 16384, w2b (ix2 ⟨o.val, by omega⟩ u) = w2 (ix2 o ⟨4096 + u.val, by omega⟩))
    (h2 : b2p ⟨o.val, by omega⟩ = b2 o) :
    acc x w1 b1 w2a b2p w2b r ⟨o.val, by omega⟩ 32 = refAt x w1 b1 w2 b2 r o := by
  rw [acc_32, refAt, sum_split, base, add_right_comm]
  refine congrArg₂ (· + ·) (congrArg₂ (· + ·) ?_ ?_) h2
  · refine Finset.sum_congr rfl fun d _ => ?_
    rw [dif_pos d.isLt, ha d]
  · refine Finset.sum_congr rfl fun j _ => ?_
    rw [blockTerm]
    refine Finset.sum_congr rfl fun h _ => ?_
    rw [dif_neg (by simp), hb (unit j h)]
    exact congrArg₂ (· * ·) (congrArg (hidden x w1 b1 r) (Fin.ext (by simp))) rfl

end Cert.Mlp

end
-- ==== Proof.Step.lean ====
/-
  One run of the body moves the accumulator one hidden block forward.

  Fix a row `r` of the input, an output `q` and a hidden block `j`.  If the body's input blocks are the rows and
  columns of the six arrays that belong to `r` and to block `j`, and the accumulator entry holds the value after
  the blocks before `j`, then the stored entry is the value after block `j`; at the first block the entry is
  first seeded with the input's own contribution and the bias.
-/
import proofs.«121853_j88965952569844_2_alg».proof.Proof.Payload
import proofs.«121853_j88965952569844_2_alg».proof.Proof.Spec

noncomputable section

open scoped BigOperators

namespace Cert.Mlp.Kernel

open Idealize.ShloMosaic Idealize.ShloMosaic.ValueIdx
open Cert.KernelIdeal Cert.KernelIdeal.Gen

/-- A later hidden block: the update adds block `j`'s contribution to the accumulator's entry. -/
theorem step_next (X : Mat 4096 4096) (W1 : Mat 16384 4096) (b1 : Fin 16384 → EReal) (W2A : Mat 1024 4096)
    (b2 : Fin 1024 → EReal) (W2B : Mat 1024 16384)
    (x0 : Vec Ideal S512x4096 .bf16) (x1 : Vec Ideal S512x4096 .bf16) (x2 : Vec Ideal S1x512 .f32)
    (a : Vec Ideal S512x1024 .f32) (x5 : Vec Ideal S1024x512 .bf16)
    (r : Fin 4096) (j : Fin 32) (p : Fin 512) (q : Fin 1024)
    (h0 : ∀ d : Fin 4096, (x0 (ix2 p d) : EReal) = X (ix2 r d))
    (h1 : ∀ (h : Fin 512) (d : Fin 4096), (x1 (ix2 h d) : EReal) = W1 (ix2 (unit j h) d))
    (h2 : ∀ h : Fin 512, (x2 (ix2 0 h) : EReal) = b1 (unit j h))
    (h5 : ∀ h : Fin 512, (x5 (ix2 q h) : EReal) = W2B (ix2 q (unit j h)))
    (ha : (a (ix2 p q) : EReal) = acc X W1 b1 W2A b2 W2B r q j.val) :
    (k0_pay2 (F := Ideal) x0 x1 x2 a x5 : S512x1024.Idx → EReal) (ix2 p q)
      = acc X W1 b1 W2A b2 W2B r q (j.val + 1) := by
  rw [pay2_apply, ha]
  show _ = acc X W1 b1 W2A b2 W2B r q j.val + (if h : j.val < 32 then blockTerm X W1 b1 W2B r q ⟨j.val, h⟩ else 0)
  rw [dif_pos j.isLt]
  refine congrArg (acc X W1 b1 W2A b2 W2B r q j.val + ·) ?_
  unfold blockTerm hidden
  refine Finset.sum_congr rfl fun h _ => ?_
  rw [h5 h, h2 h]
  refine congrArg (fun s => max (s + b1 (unit j h)) (Ideal.ofBits .f32 0x00000000#32) * W2B (ix2 q (unit j h))) ?_
  refine Finset.sum_congr rfl fun d _ => ?_
  rw [h0 d, h1 h d]

/-- The first hidden block (`j = 0`): the seed is the input's own contribution plus the bias, and the update adds block 0. -/
theorem step_first (X : Mat 4096 4096) (W1 : Mat 16384 4096) (b1 : Fin 16384 → EReal) (W2A : Mat 1024 4096)
    (b2 : Fin 1024 → EReal) (W2B : Mat 1024 16384)
    (x0 : Vec Ideal S512x4096 .bf16) (x1 : Vec Ideal S512x4096 .bf16) (x2 : Vec Ideal S1x512 .f32)
    (x3 : Vec Ideal S1024x4096 .bf16) (x4 : Vec Ideal S1x1024 .f32) (x5 : Vec Ideal S1024x512 .bf16)
    (r : Fin 4096) (j : Fin 32) (hj : j.val = 0) (p : Fin 512) (q : Fin 1024)
    (h0 : ∀ d : Fin 4096, (x0 (ix2 p d) : EReal) = X (ix2 r d))
    (h1 : ∀ (h : Fin 512) (d : Fin 4096), (x1 (ix2 h d) : EReal) = W1 (ix2 (unit j h) d))
    (h2 : ∀ h : Fin 512, (x2 (ix2 0 h) : EReal) = b1 (unit j h))
    (h3 : ∀ d : Fin 4096, (x3 (ix2 q d) : EReal) = W2A (ix2 q d))
    (h4 : (x4 (ix2 0 q) : EReal) = b2 q)
    (h5 : ∀ h : Fin 512, (x5 (ix2 q h) : EReal) = W2B (ix2 q (unit j h))) :
    (k0_pay2 (F := Ideal) x0 x1 x2 (k0_pay1 (F := Ideal) x0 x3 x4) x5 : S512x1024.Idx → EReal) (ix2 p q)
      = acc X W1 b1 W2A b2 W2B r q (j.val + 1) := by
  refine step_next X W1 b1 W2A b2 W2B x0 x1 x2 (k0_pay1 (F := Ideal) x0 x3 x4) x5 r j p q h0 h1 h2 h5 ?_
  rw [pay1_apply, h4, hj]
  show _ = base X W2A b2 r q
  unfold base
  refine congrArg (· + b2 q) ?_
  refine Finset.sum_congr rfl fun d _ => ?_
  rw [h0 d, h3 d]

end Cert.Mlp.Kernel

end
-- ==== Proof.Arrays.lean ====
/-
  The accumulator's values and the fused region's output array, written over the six arrays as the region finds
  them: the converted input and first weight matrix, the first bias as a row, the two halves of the padded second
  weight matrix and the padded second bias as a row.
-/
import proofs.«121853_j88965952569844_2_alg».proof.Proof.Gen.KernelIdeal.Frame.Runs
import proofs.«121853_j88965952569844_2_alg».proof.Proof.Spec

noncomputable section

namespace Cert.Mlp.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The accumulator's value for row `r`, output `o`, after `n` hidden blocks, over the six arrays as the region finds them. -/
def kacc (r : Fin 4096) (o : Fin 1024) (n : ℕ) : EReal :=
  acc (V m c main_v0 : S4096x4096.Idx → EReal) (V m c main_v1 : S16384x4096.Idx → EReal) (fun u => (V m c main_v8 : S1x16384.Idx → EReal) (ix2 0 u)) (V m c main_v5 : S1024x4096.Idx → EReal) (fun o => (V m c main_v9 : S1x1024.Idx → EReal) (ix2 0 o)) (V m c main_v7 : S1024x16384.Idx → EReal) r o n

/-- The region's output array: at (r, o) the accumulator after all 32 hidden blocks. -/
def karr : S4096x1024.Idx → EReal := fun i => kacc m c (i 0) (i 1) 32

theorem karr_apply (r : Fin 4096) (o : Fin 1024) : karr m c (ix2 r o) = kacc m c r o 32 := rfl

end Cert.Mlp.Kernel

end
-- ==== Proof.Accum.lean ====
/-
  The accumulator across the grid.  Grid point t = 32 i + j works on rows 512 i .. 512 i + 511 of the input and on
  hidden block j.  After the body at t, entry (p, q) of the carried accumulator holds, for row r = 512 i + p, the
  input's own contribution to output q plus the bias plus the contributions of hidden blocks 0 .. j, added in that
  order; at j = 31 the output block holds the same.  By induction on the point: j = 0 seeds and adds block 0, every
  other point adds block j to what the point before left.
-/
import proofs.«121853_j88965952569844_2_alg».proof.Proof.Gen.KernelIdeal.Frame
import proofs.«121853_j88965952569844_2_alg».proof.Proof.Pieces
import proofs.«121853_j88965952569844_2_alg».proof.Proof.Blocks
import proofs.«121853_j88965952569844_2_alg».proof.Proof.Step
import proofs.«121853_j88965952569844_2_alg».proof.Proof.Arrays

noncomputable section

open scoped BigOperators

namespace Cert.Mlp.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- After the body at point `n`, the carried accumulator at (p, q) is the value after hidden blocks 0 .. n % 32 of row 512 (n / 32) + p. -/
theorem scratch_eq (n : ℕ) : ∀ (hn : n < cfg0.N) (p : Fin 512) (q : Fin 1024) (r : Fin 4096), r.val = 512 * (n / 32) + p.val →
    ((outsAt0 m c n hn).2 : S512x1024.Idx → EReal) (ix2 p q) = kacc m c r q (n % 32 + 1) := by
  induction n using Nat.strong_induction_on with
  | _ n ih =>
  intro hn p q
  obtain ⟨t, rfl⟩ : ∃ t : Fin cfg0.N, t.val = n := ⟨⟨n, hn⟩, rfl⟩
  have hN : t.val < 256 := lt_of_lt_of_eq hn (show cfg0.N = 256 from N_0)
  have hlt : 512 * (t.val / 32) + p.val < 4096 := by have := p.isLt; omega
  intro r hr
  obtain rfl : r = ⟨512 * (t.val / 32) + p.val, hlt⟩ := Fin.ext hr
  have hj : t.val % 32 < 32 := Nat.mod_lt _ (by decide)
  have hu : ∀ h : Fin 512, 512 * (t.val % 32) + h.val < 16384 := fun h => by omega
  by_cases h0 : t.val % 32 = 0
  · have h1 : ¬t.val % 32 = 31 := by omega
    rw [outsAt0_A m c t h0 h1, sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)]
    dsimp only
    exact step_first (V m c main_v0 : S4096x4096.Idx → EReal) (V m c main_v1 : S16384x4096.Idx → EReal) (fun u => (V m c main_v8 : S1x16384.Idx → EReal) (ix2 0 u)) (V m c main_v5 : S1024x4096.Idx → EReal) (fun o => (V m c main_v9 : S1x1024.Idx → EReal) (ix2 0 o)) (V m c main_v7 : S1024x16384.Idx → EReal)
      (iblk m c 0 t) (iblk m c 1 t) (iblk m c 2 t) (iblk m c 3 t) (iblk m c 4 t) (iblk m c 5 t)
      ⟨512 * (t.val / 32) + p.val, hlt⟩ ⟨t.val % 32, hj⟩ h0 p q
      (fun d => iblk0_apply m c t p d hlt)
      (fun h d => iblk1_apply m c t h d (hu h))
      (fun h => iblk2_apply m c t h (hu h))
      (fun d => iblk3_apply m c t q d)
      (iblk4_apply m c t q)
      (fun h => iblk5_apply m c t q h (hu h))
  · have hpos : 0 < t.val := by omega
    have ha : ((outsAt0 m c (t.val - 1) (Nat.lt_of_le_of_lt (Nat.sub_le _ _) t.isLt)).2 : S512x1024.Idx → EReal) (ix2 p q)
        = kacc m c ⟨512 * (t.val / 32) + p.val, hlt⟩ q (t.val % 32) := by
      have := ih (t.val - 1) (by omega) (Nat.lt_of_le_of_lt (Nat.sub_le _ _) t.isLt) p q ⟨512 * (t.val / 32) + p.val, hlt⟩
        (by show 512 * (t.val / 32) + p.val = 512 * ((t.val - 1) / 32) + p.val; omega)
      rwa [show (t.val - 1) % 32 + 1 = t.val % 32 by omega] at this
    by_cases h1 : t.val % 32 = 31
    · rw [outsAt0_C m c t h0 h1, sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2]
      dsimp only
      exact step_next (V m c main_v0 : S4096x4096.Idx → EReal) (V m c main_v1 : S16384x4096.Idx → EReal) (fun u => (V m c main_v8 : S1x16384.Idx → EReal) (ix2 0 u)) (V m c main_v5 : S1024x4096.Idx → EReal) (fun o => (V m c main_v9 : S1x1024.Idx → EReal) (ix2 0 o)) (V m c main_v7 : S1024x16384.Idx → EReal)
        (iblk m c 0 t) (iblk m c 1 t) (iblk m c 2 t) (outsAt0 m c (t.val - 1) (Nat.lt_of_le_of_lt (Nat.sub_le _ _) t.isLt)).2 (iblk m c 5 t)
        ⟨512 * (t.val / 32) + p.val, hlt⟩ ⟨t.val % 32, hj⟩ p q
        (fun d => iblk0_apply m c t p d hlt)
        (fun h d => iblk1_apply m c t h d (hu h))
        (fun h => iblk2_apply m c t h (hu h))
        (fun h => iblk5_apply m c t q h (hu h))
        ha
    · rw [outsAt0_B m c t h0 h1, sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2]
      dsimp only
      exact step_next (V m c main_v0 : S4096x4096.Idx → EReal) (V m c main_v1 : S16384x4096.Idx → EReal) (fun u => (V m c main_v8 : S1x16384.Idx → EReal) (ix2 0 u)) (V m c main_v5 : S1024x4096.Idx → EReal) (fun o => (V m c main_v9 : S1x1024.Idx → EReal) (ix2 0 o)) (V m c main_v7 : S1024x16384.Idx → EReal)
        (iblk m c 0 t) (iblk m c 1 t) (iblk m c 2 t) (outsAt0 m c (t.val - 1) (Nat.lt_of_le_of_lt (Nat.sub_le _ _) t.isLt)).2 (iblk m c 5 t)
        ⟨512 * (t.val / 32) + p.val, hlt⟩ ⟨t.val % 32, hj⟩ p q
        (fun d => iblk0_apply m c t p d hlt)
        (fun h d => iblk1_apply m c t h d (hu h))
        (fun h => iblk2_apply m c t h (hu h))
        (fun h => iblk5_apply m c t q h (hu h))
        ha

/-- At the last hidden block of a row block the output block holds the finished accumulator. -/
theorem out_eq (t : Fin cfg0.N) (h1 : t.val % 32 = 31) (p : Fin 512) (q : Fin 1024) (r : Fin 4096)
    (hr : r.val = 512 * (t.val / 32) + p.val) :
    ((outsAt0 m c t.val t.isLt).1 : S512x1024.Idx → EReal) (ix2 p q) = kacc m c r q 32 := by
  have h0 : ¬t.val % 32 = 0 := by omega
  have hs := scratch_eq m c t.val t.isLt p q r hr
  rw [h1] at hs
  rw [outsAt0_C m c t h0 h1, sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2] at hs
  rw [outsAt0_C m c t h0 h1, out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2]
  exact hs

end Cert.Mlp.Kernel

end
-- ==== Proof.KernelValue.lean ====
/-
  The fused region's output array after the run.  The pipeline writes an output block back only at the last
  hidden block of a row block (points 32 i + 31); what it writes there is rows 512 i .. 512 i + 511 of one array,
  the finished accumulator; and the eight row blocks cover the array.  So the array ends holding, at (r, o), the
  accumulator of row r and output o after all 32 hidden blocks.
-/
import proofs.«121853_j88965952569844_2_alg».proof.Proof.Accum
import Idealize.ShloMosaic.Lib.Pipeline.Value

noncomputable section

namespace Cert.Mlp.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)

/-- The output window's block index at point `t`: row block `t / 32`, the one column block. -/
theorem idx_out : ∀ t : Fin cfg0.N, win0_6.index t (0 : Fin 2) = t.val / 32 ∧ win0_6.index t (1 : Fin 2) = 0 :=
  (by decide +kernel : ∀ t : Fin grid0.N, win0_6.index t (0 : Fin 2) = t.val / 32 ∧ win0_6.index t (1 : Fin 2) = 0)

/-- What a writing point writes back is its row block of the one output array. -/
theorem flushed_eq (t : Fin cfg0.N) (hf : (cfg0.win 6).flush t = true) :
    (dats m 0 c).flushed 6 t = ((cfg0.win 6).blk t).view.read (Elt Ideal) (karr m c) := by
  have h31 : t.val % 32 = 31 := (flush0_6 t).mp hf
  have hN : t.val < 256 := lt_of_lt_of_eq t.isLt (show cfg0.N = 256 from N_0)
  obtain ⟨e0, e1⟩ := idx_out t
  show (cfg0.win 6).cut (grid0.coords t) ((dats m 0 c).after 6 t) = _
  rw [after0_6]
  funext j
  obtain ⟨p, q, rfl⟩ : ∃ (p : Fin 512) (q : Fin 1024), j = ix2 p q := ⟨j 0, j 1, eq_ix2 j⟩
  show ((outsAt0 m c t.val t.isLt).1 : S512x1024.Idx → EReal) (ix2 p q) = karr m c (((cfg0.win 6).blk t).view.emb (ix2 p q))
  have hlt : 512 * (t.val / 32) + p.val < 4096 := by have := p.isLt; omega
  refine (out_eq m c t h31 p q ⟨512 * (t.val / 32) + p.val, hlt⟩ rfl).trans ?_
  show kacc m c _ _ 32 = kacc m c _ _ 32
  refine congrArg₂ (fun a b => kacc m c a b 32) (Fin.ext ?_) (Fin.ext ?_)
  · show 512 * (t.val / 32) + p.val = win0_6.index t (0 : Fin 2) * 512 + 1 * p.val
    omega
  · show q.val = win0_6.index t (1 : Fin 2) * 1024 + 1 * q.val
    omega

/-- Every entry of the output array lies in the block of the writing point of its row block. -/
theorem covered (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 256 := N_0
  have ht : 32 * ((i 0).val / 512) + 31 < cfg0.N := by rw [hN]; omega
  obtain ⟨t, htv⟩ : ∃ t : Fin cfg0.N, t.val = 32 * ((i 0).val / 512) + 31 := ⟨⟨_, ht⟩, rfl⟩
  obtain ⟨e0, e1⟩ := idx_out t
  refine ⟨t, (flush0_6 t).mpr (by omega), ?_⟩
  show i ∈ ((View.whole main_v10).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- The output array after the run. -/
theorem final : (dats m 0 c).arrAt 6 cfg0.N = karr m c :=
  (dats m 0 c).arrAt_eq_of_cover 6 (karr m c) (flushed_eq m c) covered

end Cert.Mlp.Kernel

end
-- ==== Proof.Tail.lean ====
/-
  After the fused region the host keeps columns 0 .. 999 of the region's output array: entry (r, o) of the
  program's result is entry (r, o) of that array.
-/
import proofs.«121853_j88965952569844_2_alg».proof.Proof.Gen.KernelIdeal.Frame
import proofs.«121853_j88965952569844_2_alg».proof.Proof.Arrays
import Idealize.ShloMosaic.Lib.Pipeline.Value
import Idealize.ShloMosaic.Lib.StableHlo.Run

noncomputable section

namespace Cert.Mlp.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The program's result at (r, o), given what the region's output array ends holding. -/
theorem tail_apply (hfin : (dats m 0 c).arrAt 6 cfg0.N = karr m c) (r : Fin 4096) (o : Fin 1000) :
    (Pipeline.afterTail₀ cfgs (dats m) 0 (V0 m) [hostOps1] c main_v11 : S4096x1000.Idx → EReal) (ix2 r o)
      = kacc m c r ⟨o.val, by omega⟩ 32 := by
  have e : (Pipeline.afterTail₀ cfgs (dats m) 0 (V0 m) [hostOps1] c main_v11 : S4096x1000.Idx → EReal)
      = extractStridedSlice S4096x1000 ![0, 0] (karr m c) slices_S4096x1024_S4096x1000_0_0 := by
    unfold Pipeline.afterTail₀
    show StableHlo.after hostOps1 _ (Proc.devRef .tc main_v11) = _
    after_results
    exact congrArg (extractStridedSlice S4096x1000 ![0, 0] · slices_S4096x1024_S4096x1000_0_0)
      ((Pipeline.withArrays_arr spec0 launch0.win.arr_inj c (V0 m c) (fun w => (dats m 0 c).arrAt w (cfgs 0).N) 6).trans hfin)
  refine (congrFun e (ix2 r o)).trans ?_
  refine (extractStridedSlice_apply _ _ _ (ix2 r o) (ix2 r ⟨o.val, by omega⟩) (fun a => ?_)).trans
    (karr_apply m c r ⟨o.val, by omega⟩)
  match a with
  | ⟨0, _⟩ => show r.val = 0 + r.val; omega
  | ⟨1, _⟩ => show o.val = 0 + o.val; omega

end Cert.Mlp.Kernel

end
-- ==== Proof.HostPrefix.lean ====
/-
  What the host operations before the fused region put into the six arrays the region reads, entry by entry, over
  the extended reals: a change of float format is the identity, so the two converted inputs are the arguments
  themselves; the bias row is the bias vector; the two halves of the second weight matrix are its columns 0..4095
  and 4096..20479, and on rows below 1000 the zero padding does not show.
-/
import proofs.«121853_j88965952569844_2_alg».proof.Proof.Gen.KernelIdeal.Frame.Runs
import Idealize.ShloMosaic.Lib.ValueIdx
import Idealize.ShloMosaic.Lib.Pipeline.Value
import Idealize.ShloMosaic.Lib.StableHlo.Run
import Idealize.ShloMosaic.Lib.KernelVsHost

noncomputable section

namespace Cert.Mlp.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The converted input is the input. -/
theorem V_v0_apply (r d : Fin 4096) :
    (V m c main_v0 : S4096x4096.Idx → EReal) (ix2 r d) = (m ((c : Thread nD τ).loc main_arg0) : S4096x4096.Idx → EReal) (ix2 r d) := by
  have e : (V m c main_v0 : S4096x4096.Idx → EReal)
      = (truncf .bf16 (m ((c : Thread nD τ).loc main_arg0) : FVec Ideal S4096x4096 .f32) bitsLt_bf16_f32 : FVec Ideal S4096x4096 .bf16) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  exact congrFun e (ix2 r d)

/-- The converted first weight matrix is the first weight matrix. -/
theorem V_v1_apply (u : Fin 16384) (d : Fin 4096) :
    (V m c main_v1 : S16384x4096.Idx → EReal) (ix2 u d) = (m ((c : Thread nD τ).loc main_arg1) : S16384x4096.Idx → EReal) (ix2 u d) := by
  have e : (V m c main_v1 : S16384x4096.Idx → EReal)
      = (truncf .bf16 (m ((c : Thread nD τ).loc main_arg1) : FVec Ideal S16384x4096 .f32) bitsLt_bf16_f32 : FVec Ideal S16384x4096 .bf16) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  exact congrFun e (ix2 u d)

/-- The first bias as a row. -/
theorem V_v8_apply (u : Fin 16384) :
    (V m c main_v8 : S1x16384.Idx → EReal) (ix2 0 u) = (m ((c : Thread nD τ).loc main_arg2) : S16384.Idx → EReal) (ix1 u) := by
  have e : (V m c main_v8 : S1x16384.Idx → EReal)
      = (shapeCast S1x16384 (m ((c : Thread nD τ).loc main_arg2) : FVec Ideal S16384 .f32) shapeCasts_S16384_S1x16384 : FVec Ideal S1x16384 .f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  refine (congrFun e (ix2 0 u)).trans ?_
  refine shapeCast_apply _ _ (ix2 0 u) (ix1 u) ?_
  rw [Shape.rowMajor_val_one, Shape.rowMajor_val_two]
  show u.val = 0 * 16384 + u.val
  omega

/-- Columns 0..4095 of the padded second weight matrix, on a row below 1000. -/
theorem V_v5_apply (o : Fin 1024) (d : Fin 4096) (ho : o.val < 1000) :
    (V m c main_v5 : S1024x4096.Idx → EReal) (ix2 o d)
      = (m ((c : Thread nD τ).loc main_arg3) : S1000x20480.Idx → EReal) (ix2 ⟨o.val, ho⟩ ⟨d.val, by omega⟩) := by
  have e : (V m c main_v5 : S1024x4096.Idx → EReal)
      = (truncf .bf16 (extractStridedSlice S1024x4096 ![0, 0]
          (pad S1024x20480 ![0, 0] ![24, 0] ![0, 0] (m ((c : Thread nD τ).loc main_arg3) : FVec Ideal S1000x20480 .f32)
            (sitofp .f32 (constantI S_ 32 0#32) : FVec Ideal S_ .f32) pads_S1000x20480_S1024x20480_0240_000 h_S_ : FVec Ideal S1024x20480 .f32)
          slices_S1024x20480_S1024x4096_0_0 : FVec Ideal S1024x4096 .f32) bitsLt_bf16_f32 : FVec Ideal S1024x4096 .bf16) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  refine (congrFun e (ix2 o d)).trans ?_
  refine (truncf_apply (ψ := .bf16) (φ := .f32) _ bitsLt_bf16_f32 _).trans ?_
  refine (extractStridedSlice_apply _ _ _ (ix2 o d) (ix2 o ⟨d.val, by omega⟩) (fun a => ?_)).trans ?_
  · match a with
    | ⟨0, _⟩ => show o.val = 0 + o.val; omega
    | ⟨1, _⟩ => show d.val = 0 + d.val; omega
  · refine pad_apply_of_inside _ _ _ _ _ _ _ (ix2 o ⟨d.val, by omega⟩) (ix2 ⟨o.val, ho⟩ ⟨d.val, by omega⟩) (fun a => ?_)
    match a with
    | ⟨0, _⟩ => show o.val = 0 + o.val * (0 + 1); omega
    | ⟨1, _⟩ => show d.val = 0 + d.val * (0 + 1); omega

/-- The padded second bias as a row, at a column below 1000. -/
theorem V_v9_apply (o : Fin 1024) (ho : o.val < 1000) :
    (V m c main_v9 : S1x1024.Idx → EReal) (ix2 0 o) = (m ((c : Thread nD τ).loc main_arg4) : S1000.Idx → EReal) (ix1 ⟨o.val, ho⟩) := by
  have e : (V m c main_v9 : S1x1024.Idx → EReal)
      = (shapeCast S1x1024
          (pad S1024 ![0] ![24] ![0] (m ((c : Thread nD τ).loc main_arg4) : FVec Ideal S1000 .f32)
            (sitofp .f32 (constantI S_ 32 0#32) : FVec Ideal S_ .f32) pads_S1000_S1024_0240 h_S_ : FVec Ideal S1024 .f32)
          shapeCasts_S1024_S1x1024 : FVec Ideal S1x1024 .f32) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  refine (congrFun e (ix2 0 o)).trans ?_
  refine (shapeCast_apply _ _ (ix2 0 o) (ix1 o) ?_).trans ?_
  · rw [Shape.rowMajor_val_one, Shape.rowMajor_val_two]
    show o.val = 0 * 1024 + o.val
    omega
  · refine pad_apply_of_inside _ _ _ _ _ _ _ (ix1 o) (ix1 ⟨o.val, ho⟩) (fun a => ?_)
    match a with
    | ⟨0, _⟩ => show o.val = 0 + o.val * (0 + 1); omega

/-- Columns 4096..20479 of the padded second weight matrix, on a row below 1000. -/
theorem V_v7_apply (o : Fin 1024) (u : Fin 16384) (ho : o.val < 1000) :
    (V m c main_v7 : S1024x16384.Idx → EReal) (ix2 o u)
      = (m ((c : Thread nD τ).loc main_arg3) : S1000x20480.Idx → EReal) (ix2 ⟨o.val, ho⟩ ⟨4096 + u.val, by omega⟩) := by
  have e : (V m c main_v7 : S1024x16384.Idx → EReal)
      = (truncf .bf16 (extractStridedSlice S1024x16384 ![0, 4096]
          (pad S1024x20480 ![0, 0] ![24, 0] ![0, 0] (m ((c : Thread nD τ).loc main_arg3) : FVec Ideal S1000x20480 .f32)
            (sitofp .f32 (constantI S_ 32 0#32) : FVec Ideal S_ .f32) pads_S1000x20480_S1024x20480_0240_000 h_S_ : FVec Ideal S1024x20480 .f32)
          slices_S1024x20480_S1024x16384_0_4096 : FVec Ideal S1024x16384 .f32) bitsLt_bf16_f32 : FVec Ideal S1024x16384 .bf16) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results <;> rfl
  refine (congrFun e (ix2 o u)).trans ?_
  refine (truncf_apply (ψ := .bf16) (φ := .f32) _ bitsLt_bf16_f32 _).trans ?_
  refine (extractStridedSlice_apply _ _ _ (ix2 o u) (ix2 o ⟨4096 + u.val, by omega⟩) (fun a => ?_)).trans ?_
  · match a with
    | ⟨0, _⟩ => show o.val = 0 + o.val; omega
    | ⟨1, _⟩ => show 4096 + u.val = 4096 + u.val; rfl
  · refine pad_apply_of_inside _ _ _ _ _ _ _ (ix2 o ⟨4096 + u.val, by omega⟩) (ix2 ⟨o.val, ho⟩ ⟨4096 + u.val, by omega⟩) (fun a => ?_)
    match a with
    | ⟨0, _⟩ => show o.val = 0 + o.val * (0 + 1); omega
    | ⟨1, _⟩ => show 4096 + u.val = 0 + (4096 + u.val) * (0 + 1); omega

end Cert.Mlp.Kernel

end
-- ==== Proof.Bridge.lean ====
/-
  The accumulator after all 32 hidden blocks, over the arrays the host prepared, is the reference value over the
  program's arguments: the converted arrays are the arguments themselves, the bias rows are the bias vectors, and
  on an output below 1000 the two halves of the padded second weight matrix are columns 0 .. 4095 and
  4096 .. 20479 of the unpadded one.
-/
import proofs.«121853_j88965952569844_2_alg».proof.Proof.Arrays
import proofs.«121853_j88965952569844_2_alg».proof.Proof.HostPrefix

noncomputable section

namespace Cert.Mlp.Kernel

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- Output `o < 1000` of row `r`: the finished accumulator is the reference's long inner product plus the bias. -/
theorem kacc_eq_ref (r : Fin 4096) (o : Fin 1000) :
    kacc m c r ⟨o.val, by omega⟩ 32
      = refAt (m ((c : Thread nD τ).loc main_arg0) : S4096x4096.Idx → EReal)
          (m ((c : Thread nD τ).loc main_arg1) : S16384x4096.Idx → EReal)
          (fun u => (m ((c : Thread nD τ).loc main_arg2) : S16384.Idx → EReal) (ix1 u))
          (m ((c : Thread nD τ).loc main_arg3) : S1000x20480.Idx → EReal)
          (fun q => (m ((c : Thread nD τ).loc main_arg4) : S1000.Idx → EReal) (ix1 q)) r o := by
  have e0 : (V m c main_v0 : S4096x4096.Idx → EReal)
      = (m ((c : Thread nD τ).loc main_arg0) : S4096x4096.Idx → EReal) := by
    funext i
    rw [eq_ix2 i]
    exact V_v0_apply m c _ _
  have e1 : (V m c main_v1 : S16384x4096.Idx → EReal)
      = (m ((c : Thread nD τ).loc main_arg1) : S16384x4096.Idx → EReal) := by
    funext i
    rw [eq_ix2 i]
    exact V_v1_apply m c _ _
  have e2 : (fun u => (V m c main_v8 : S1x16384.Idx → EReal) (ix2 0 u))
      = fun u => (m ((c : Thread nD τ).loc main_arg2) : S16384.Idx → EReal) (ix1 u) :=
    funext (V_v8_apply m c)
  unfold kacc
  rw [e0, e1, e2]
  exact Cert.Mlp.acc_eq_ref _ _ _ _ _ _ _ _ r o (fun d => V_v5_apply m c ⟨o.val, by omega⟩ d o.isLt)
    (fun u => V_v7_apply m c ⟨o.val, by omega⟩ u o.isLt) (V_v9_apply m c ⟨o.val, by omega⟩ o.isLt)

end Cert.Mlp.Kernel

end
-- ==== Proof.RefIsSpec.lean ====
/-
  The reference program's result, entry by entry: the inner product of the concatenated row [x_r, hidden_r] with
  row o of the second weight matrix, plus the bias — the function `refAt` of the specification.
-/
import proofs.«121853_j88965952569844_2_alg».proof.Proof.Gen.ReferenceIdeal.Read
import proofs.«121853_j88965952569844_2_alg».proof.Proof.Spec

noncomputable section

open scoped BigOperators

namespace Cert.Mlp.Ref

open Idealize.ShloMosaic Idealize.ShloMosaic.TcCoe Idealize.SL.Sem Idealize.ShloMosaic.ValueIdx
open Cert.ReferenceIdeal Cert.ReferenceIdeal.Gen Cert.ReferenceIdeal.Read

/-- Two arrays joined along their second axis, read at a column of the first: the first array at that column. -/
private theorem concat2_left {α : Type} {m n₁ n₂ n : ℕ} (x₁ : (⟨2, ![m, n₁]⟩ : Shape).Idx → α)
    (x₂ : (⟨2, ![m, n₂]⟩ : Shape).Idx → α)
    (h : Shape.Concatenates [(⟨2, ![m, n₁]⟩ : Shape), ⟨2, ![m, n₂]⟩] (⟨2, ![m, n]⟩ : Shape) 1)
    (p : Fin m) (c : Fin n) (hc : c.val < n₁) :
    concatenate (⟨2, ![m, n]⟩ : Shape) 1 [⟨_, x₁⟩, ⟨_, x₂⟩] h (ix2 p c) = x₁ (ix2 p ⟨c.val, hc⟩) := by
  refine concatenate_pair_apply_left 1 x₁ x₂ h (ix2 p c) rfl (ix2 p ⟨c.val, hc⟩) ?_
  intro b
  match b with
  | ⟨0, _⟩ => rfl
  | ⟨1, _⟩ => rfl

/-- Two arrays joined along their second axis, read at a column past the first: the second array at that column
    less the first array's width. -/
private theorem concat2_right {α : Type} {m n₁ n₂ n : ℕ} (x₁ : (⟨2, ![m, n₁]⟩ : Shape).Idx → α)
    (x₂ : (⟨2, ![m, n₂]⟩ : Shape).Idx → α)
    (h : Shape.Concatenates [(⟨2, ![m, n₁]⟩ : Shape), ⟨2, ![m, n₂]⟩] (⟨2, ![m, n]⟩ : Shape) 1)
    (p : Fin m) (c : Fin n) (hc : n₁ ≤ c.val) (hc2 : c.val - n₁ < n₂) :
    concatenate (⟨2, ![m, n]⟩ : Shape) 1 [⟨_, x₁⟩, ⟨_, x₂⟩] h (ix2 p c) = x₂ (ix2 p ⟨c.val - n₁, hc2⟩) := by
  refine concatenate_pair_apply_right 1 x₁ x₂ h (ix2 p c) rfl rfl (ix2 p ⟨c.val - n₁, hc2⟩) ?_ ?_
  · intro b hb
    match b, hb with
    | ⟨0, _⟩, _ => rfl
    | ⟨1, _⟩, hb => exact absurd rfl hb
  · show (c.val - n₁) + n₁ = c.val
    omega

/-- The rectified hidden layer of the reference at (r, u) is the specification's hidden unit. -/
private theorem val_v4_apply (x0 : (⟨S4096x4096, .f32⟩ : BufTy).Contents (Elt Ideal)) (x1 : (⟨S16384x4096, .f32⟩ : BufTy).Contents (Elt Ideal))
    (x2 : (⟨S16384, .f32⟩ : BufTy).Contents (Elt Ideal)) (r : Fin 4096) (u : Fin 16384) :
    (val_main_v4 (F := Ideal) x0 x1 x2 : S4096x16384.Idx → EReal) (ix2 r u)
      = Cert.Mlp.hidden (x0 : S4096x4096.Idx → EReal) (x1 : S16384x4096.Idx → EReal) (fun u => (x2 (ix1 u) : EReal)) r u := by
  rw [val_main_v4_apply, val_main_v3_apply, val_main_v0_apply, val_main_v2_apply, val_main_v1_apply,
    val_main_call0_v0_apply, val_main_call0_cst_apply]
  have el : ∀ k : Fin 4096, lidx_main_v0 (ix2 r u) k = ix2 r k := fun k => funext fun a => by
    match a with
    | ⟨0, _⟩ => rfl
    | ⟨1, _⟩ => rfl
  have er : ∀ k : Fin 4096, ridx_main_v0 (ix2 r u) k = ix2 u k := fun k => funext fun a => by
    match a with
    | ⟨0, _⟩ => rfl
    | ⟨1, _⟩ => rfl
  have eb : idx_main_v1 (idx_main_v2 (ix2 r u)) = ix1 u := funext fun a => by
    match a with
    | ⟨0, _⟩ => rfl
  simp only [el, er, eb]
  rfl

/-- The reference's last stage at (r, o) is the specification's long inner product plus the bias. -/
theorem val_apply (x0 : (⟨S4096x4096, .f32⟩ : BufTy).Contents (Elt Ideal)) (x1 : (⟨S16384x4096, .f32⟩ : BufTy).Contents (Elt Ideal))
    (x2 : (⟨S16384, .f32⟩ : BufTy).Contents (Elt Ideal)) (x3 : (⟨S1000x20480, .f32⟩ : BufTy).Contents (Elt Ideal))
    (x4 : (⟨S1000, .f32⟩ : BufTy).Contents (Elt Ideal)) (r : Fin 4096) (o : Fin 1000) :
    (val_main_v9 (F := Ideal) x0 x1 x2 x3 x4 : S4096x1000.Idx → EReal) (ix2 r o)
      = Cert.Mlp.refAt (x0 : S4096x4096.Idx → EReal) (x1 : S16384x4096.Idx → EReal) (fun u => (x2 (ix1 u) : EReal))
          (x3 : S1000x20480.Idx → EReal) (fun q => (x4 (ix1 q) : EReal)) r o := by
  rw [val_main_v9_apply, val_main_v6_apply, val_main_v8_apply, val_main_v7_apply]
  have el : ∀ k : Fin 20480, lidx_main_v6 (ix2 r o) k = ix2 r k := fun k => funext fun a => by
    match a with
    | ⟨0, _⟩ => rfl
    | ⟨1, _⟩ => rfl
  have er : ∀ k : Fin 20480, ridx_main_v6 (ix2 r o) k = ix2 o k := fun k => funext fun a => by
    match a with
    | ⟨0, _⟩ => rfl
    | ⟨1, _⟩ => rfl
  have eb : idx_main_v7 (idx_main_v8 (ix2 r o)) = ix1 o := funext fun a => by
    match a with
    | ⟨0, _⟩ => rfl
  simp only [el, er, eb, Ideal.addf_def]
  rw [Cert.Mlp.refAt]
  refine congrArg₂ (· + ·) (Finset.sum_congr rfl fun k _ => congrArg₂ (· * ·) ?_ rfl) rfl
  rw [val_main_v5]
  by_cases hk : k.val < 4096
  · rw [dif_pos hk]
    exact concat2_left _ _ _ r k hk
  · rw [dif_neg hk]
    exact (concat2_right _ _ _ r k (by omega) (by have := k.isLt; omega)).trans (val_v4_apply x0 x1 x2 r _)

end Cert.Mlp.Ref

end
-- ==== Proof.Claims.lean ====
/-
  The five claims.  Both idealized programs end with the same array: at (r, o), the inner product of the
  concatenated row [x_r, hidden_r] with row o of the second weight matrix, plus the bias.  The reference computes it
  as written.  The kernel's region leaves, in its padded output array, the accumulator after all 32 hidden blocks;
  the host keeps columns below 1000; and there the blockwise accumulation is the same sum, because addition of
  extended reals is associative and commutative.  The three frames are the generated runs; the idealization pass
  rewrote nothing.
-/
import proofs.«121853_j88965952569844_2_alg».proof.Defs
import proofs.«121853_j88965952569844_2_alg».proof.Proof.Gen.Pre_finite_inputs
import proofs.«121853_j88965952569844_2_alg».proof.Proof.Gen.Kernel.Frame
import proofs.«121853_j88965952569844_2_alg».proof.Proof.Gen.KernelIdeal.Frame
import proofs.«121853_j88965952569844_2_alg».proof.Proof.Gen.ReferenceIdeal.Run
import proofs.«121853_j88965952569844_2_alg».proof.Proof.Gen.ReferenceIdeal.Read
import proofs.«121853_j88965952569844_2_alg».proof.Proof.KernelValue
import proofs.«121853_j88965952569844_2_alg».proof.Proof.Tail
import proofs.«121853_j88965952569844_2_alg».proof.Proof.Bridge
import proofs.«121853_j88965952569844_2_alg».proof.Proof.RefIsSpec

noncomputable section

open Idealize.ShloMosaic Idealize.ShloMosaic.TcCoe Idealize.SL.Sem Idealize.ShloMosaic.ValueIdx

namespace Cert.Mlp.Kernel

open Cert.KernelIdeal Cert.KernelIdeal.Gen

variable (m : (ℓ : Loc nD τ sig) → Buf (Elt Ideal) ℓ) (ρ : Dev nD → PrngReg)

/-- The common result on core `c`: the reference value at every (r, o), over the program's arguments. -/
def result (c : Dev nD) : Buf (Elt Ideal) ((c.tc : Thread nD τ).loc main_v11) := fun i =>
  refAt ((m ((c : Thread nD τ).loc main_arg0)) : S4096x4096.Idx → EReal) ((m ((c : Thread nD τ).loc main_arg1)) : S16384x4096.Idx → EReal)
    (fun u => ((m ((c : Thread nD τ).loc main_arg2)) : S16384.Idx → EReal) (ix1 u)) ((m ((c : Thread nD τ).loc main_arg3)) : S1000x20480.Idx → EReal)
    (fun q => ((m ((c : Thread nD τ).loc main_arg4)) : S1000.Idx → EReal) (ix1 q)) (i 0) (i 1)

/-- What the host leaves in the result buffer after the region is that array. -/
theorem tail_eq (c : Dev nD) :
    Pipeline.afterTail₀ cfgs (dats m) 0 (V0 m) [hostOps1] c main_v11 = result m c := by
  funext i
  rw [eq_ix2 i]
  exact (tail_apply m c (final m c) (i 0) (i 1)).trans (kacc_eq_ref m c (i 0) (i 1))

/-- The idealized kernel's run: the result buffer at the common result, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Mlp.Kernel

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the arguments both runs end, with the result buffers at one array. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  refine (Cert.ReferenceIdeal.Read.val_main_v9_eq (F := Ideal) _ _ _ _ _).trans ?_
  funext i
  rw [eq_ix2 i]
  exact Cert.Mlp.Ref.val_apply _ _ _ _ _ (i 0) (i 1)

end Cert.Proof.Claims

end
-- ==== Proof.lean ====
/-
  A fused two-layer perceptron against its plain formulation, over the extended reals.

  The network: 16384 hidden units, unit u of row r holding max(<x_r, W1_u> + b1_u, 0); output o of row r is the
  inner product of the row [x_r, hidden_r] of length 4096 + 16384 with row o of the second weight matrix W2, plus
  the bias b2_o.  The reference takes that inner product as one sum of 20480 products.  The kernel pads W2 and b2
  with 24 zero rows, splits W2 by columns into the part that meets x and the part that meets the hidden units, and
  runs a grid of 8 row blocks by 32 hidden blocks: at the first hidden block of a row block an accumulator is seeded
  with the input's own contribution plus the bias, every hidden block then adds the contribution of its 512 units,
  and after the last one the accumulator is written out; the host finally drops the 24 padded columns.

  Over the extended reals every change of float format is the identity and addition is associative and
  commutative, so the seeded, blockwise sum is the long inner product plus the bias, entry by entry; the zero padding
  never shows below column 1000.  No finiteness of the inputs is used.

  Proof/Spec.lean states the two forms and proves them equal; Proof/RefIsSpec.lean reads the reference's result as
  the long form; Proof/Pieces.lean, Payload.lean, Step.lean, Blocks.lean and Accum.lean read the accumulator after
  every grid point as the blockwise form (by induction on the point); Proof/KernelValue.lean opens the output array,
  Proof/Tail.lean the host's last slice, Proof/HostPrefix.lean and Bridge.lean the arrays the host prepares;
  Proof/Claims.lean assembles the five claims.
-/
import proofs.«121853_j88965952569844_2_alg».proof.Defs
import proofs.«121853_j88965952569844_2_alg».proof.Proof.Gen.Kernel
import proofs.«121853_j88965952569844_2_alg».proof.Proof.Gen.KernelIdeal
import proofs.«121853_j88965952569844_2_alg».proof.Proof.Gen.ReferenceIdeal
import proofs.«121853_j88965952569844_2_alg».proof.Proof.Gen.Pre_finite_inputs
import proofs.«121853_j88965952569844_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
